-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S100000x64 : Shape := ⟨2, ![100000, 64]⟩
abbrev S800000 : Shape := ⟨1, ![800000]⟩
abbrev S800000x1 : Shape := ⟨2, ![800000, 1]⟩
abbrev S128x128 : Shape := ⟨2, ![128, 128]⟩
abbrev S128 : Shape := ⟨1, ![128]⟩
abbrev S128x64 : Shape := ⟨2, ![128, 64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S800000x1 : S_.BroadcastsInDim S800000x1 (![] : Fin 0 → Fin S800000x1.rank)
  reducesTo_S800000x1_S_d0_1 : S800000x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_

variable [Facts]

def fn_part2 {F : FTy → Type} [FloatOps F] (main_arg11 : FVec F S128 .f32) (main_v33 : IVec S_ 1) : IVec S_ 1 :=
  let main_v34 : FVec F S128 .f32 := Host.absf main_arg11
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg8 : FVec F S128x128 .f32) (main_arg9 : FVec F S128 .f32) (main_arg10 : FVec F S128x64 .f32) (main_arg11 : FVec F S128 .f32) (main_v13 : IVec S_ 1) (main_v16 : IVec S800000x1 1) : IVec S_ 1 :=
  let main_c_5 : IVec S_ 1 := constantI S_ 1 1#1
  let main_v17 : IVec S_ 1 := (fun x v => Host.reduce IntOp.andi x v reducesTo_S800000x1_S_d0_1 h_S_) main_v16 main_c_5
  let main_v18 : IVec S_ 1 := andi main_v13 main_v17
  let main_v19 : FVec F S128x128 .f32 := Host.absf main_arg8
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg9
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg10
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg11 main_v33

def fn {F : FTy → Type} [FloatOps F] (main_arg0 : FVec F S50000x128 .f32) (main_arg1 : FVec F S100000x64 .f32) (main_arg2 : IVec S800000 32) (main_arg3 : IVec S800000 32) (main_arg4 : FVec F S800000x1 .f32) (main_arg5 : IVec S800000 32) (main_arg6 : IVec S800000 32) (main_arg7 : FVec F S800000x1 .f32) (main_arg8 : FVec F S128x128 .f32) (main_arg9 : FVec F S128 .f32) (main_arg10 : FVec F S128x64 .f32) (main_arg11 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S800000x1 .f32 := Host.absf main_arg4
  let main_cst_2 : FVec F S_ .f32 := constant S_ .f32 0x7F800000#32
  let main_v10 : FVec F S800000x1 .f32 := broadcastInDim S800000x1 ![] bcast_S_S800000x1 main_cst_2
  let main_v11 : IVec S800000x1 1 := cmpf .olt main_v9 main_v10
  let main_c_3 : IVec S_ 1 := constantI S_ 1 1#1
  let main_v12 : IVec S_ 1 := (fun x v => Host.reduce IntOp.andi x v reducesTo_S800000x1_S_d0_1 h_S_) main_v11 main_c_3
  let main_v13 : IVec S_ 1 := andi main_v8 main_v12
  let main_v14 : FVec F S800000x1 .f32 := Host.absf main_arg7
  let main_cst_4 : FVec F S_ .f32 := constant S_ .f32 0x7F800000#32
  let main_v15 : FVec F S800000x1 .f32 := broadcastInDim S800000x1 ![] bcast_S_S800000x1 main_cst_4
  let main_v16 : IVec S800000x1 1 := cmpf .olt main_v14 main_v15
  fn_part1 (F := F) main_arg8 main_arg9 main_arg10 main_arg11 main_v13 main_v16
-- ==== Kernel.lean ====
abbrev S50000x128 : Shape := ⟨2, ![50000, 128]⟩
abbrev S100000x64 : Shape := ⟨2, ![100000, 64]⟩
abbrev S800000 : Shape := ⟨1, ![800000]⟩
abbrev S800000x1 : Shape := ⟨2, ![800000, 1]⟩
abbrev S128x128 : Shape := ⟨2, ![128, 128]⟩
abbrev S128 : Shape := ⟨1, ![128]⟩
abbrev S128x64 : Shape := ⟨2, ![128, 64]⟩
abbrev S1x128 : Shape := ⟨2, ![1, 128]⟩
abbrev S5000x128 : Shape := ⟨2, ![5000, 128]⟩
abbrev S100000x128 : Shape := ⟨2, ![100000, 128]⟩
abbrev S10000x64 : Shape := ⟨2, ![10000, 64]⟩
abbrev S10000x128 : Shape := ⟨2, ![10000, 128]⟩
abbrev S64x128 : Shape := ⟨2, ![64, 128]⟩
abbrev S_ : Shape := ⟨0, ![]⟩
abbrev S800000x128 : Shape := ⟨2, ![800000, 128]⟩

abbrev nBuf : Space → Nat
  | .hbm => 47
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S100000x64, .f32⟩
  | .hbm, ⟨2, _⟩ => ⟨S800000, .i32⟩
  | .hbm, ⟨3, _⟩ => ⟨S800000, .i32⟩
  | .hbm, ⟨4, _⟩ => ⟨S800000x1, .f32⟩
  | .hbm, ⟨5, _⟩ => ⟨S800000, .i32⟩
  | .hbm, ⟨6, _⟩ => ⟨S800000, .i32⟩
  | .hbm, ⟨7, _⟩ => ⟨S800000x1, .f32⟩
  | .hbm, ⟨8, _⟩ => ⟨S128x128, .f32⟩
  | .hbm, ⟨9, _⟩ => ⟨S128, .f32⟩
  | .hbm, ⟨10, _⟩ => ⟨S128x64, .f32⟩
  | .hbm, ⟨11, _⟩ => ⟨S128, .f32⟩
  | .hbm, ⟨12, _⟩ => ⟨S1x128, .f32⟩
  | .hbm, ⟨13, _⟩ => ⟨S50000x128, .f32⟩
  | .hbm, ⟨14, _⟩ => ⟨S1x128, .f32⟩
  | .hbm, ⟨15, _⟩ => ⟨S100000x128, .f32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .f32⟩
  | .hbm, ⟨25, _⟩ => ⟨S800000x128, .f32⟩
  | .hbm, ⟨26, _⟩ => ⟨S800000x128, .f32⟩
  | .hbm, ⟨27, _⟩ => ⟨S_, .f32⟩
  | .hbm, ⟨28, _⟩ => ⟨S50000x128, .f32⟩
  | .hbm, ⟨29, _⟩ => ⟨S800000x1, .i32⟩
  | .hbm, ⟨30, _⟩ => ⟨S50000x128, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x128, .f32⟩
  | .hbm, ⟨40, _⟩ => ⟨S800000x128, .f32⟩
  | .hbm, ⟨41, _⟩ => ⟨S800000x128, .f32⟩
  | .hbm, ⟨42, _⟩ => ⟨S_, .f32⟩
  | .hbm, ⟨43, _⟩ => ⟨S50000x128, .f32⟩
  | .hbm, ⟨44, _⟩ => ⟨S800000x1, .i32⟩
  | .hbm, ⟨45, _⟩ => ⟨S50000x128, .f32⟩
  | .hbm, ⟨46, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S10000x64, .f32⟩
  | .local _ .vmem, ⟨7, _⟩ => ⟨S10000x64, .f32⟩
  | .local _ .vmem, ⟨8, _⟩ => ⟨S128x64, .f32⟩
  | .local _ .vmem, ⟨9, _⟩ => ⟨S1x128, .f32⟩
  | .local _ .vmem, ⟨10, _⟩ => ⟨S10000x128, .f32⟩
  | .local _ .vmem, ⟨11, _⟩ => ⟨S10000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_1 : Ref sig .tc := ⟨.hbm, 31, rfl⟩
abbrev main_v16 : Ref sig .tc := ⟨.hbm, 32, rfl⟩
abbrev main_v17 : Ref sig .tc := ⟨.hbm, 33, rfl⟩
abbrev main_c_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_3 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S10000x64_S10000x64_0_0 : ∀ a, (![0, 0] : Fin 2 → Nat) a + S10000x64.size a ≤ S10000x64.size a
  h_S10000x64 : 0 < S10000x64.numel
  inb_S128x64_S128x64_0_0 : ∀ a, (![0, 0] : Fin 2 → Nat) a + S128x64.size a ≤ S128x64.size a
  h_S128x64 : 0 < S128x64.numel
  transposes_S128x64_p1_0_S64x128 : S128x64.Transposes [1, 0] S64x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S5000x128_S5000x128 : S5000x128.ShapeCasts S5000x128
  dot_S5000x128_S128x128_S5000x128_1_0_0_1_n_n_wf : DotDims.WF S5000x128 S128x128 S5000x128 [1] [0] [0] [1] [] []
  dot_S10000x64_S64x128_S10000x128_1_0_0_1_n_n_wf : DotDims.WF S10000x64 S64x128 S10000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  gather_S100000x128_S800000x1_S800000x128_1_0_n_n_0_1_1128_wf : GatherDims.WF S100000x128 S800000x1 S800000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg8) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg10) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v27) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v28) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x128 : Shape := ⟨2, ![50000, 128]⟩
abbrev S100000x64 : Shape := ⟨2, ![100000, 64]⟩
abbrev S800000 : Shape := ⟨1, ![800000]⟩
abbrev S800000x1 : Shape := ⟨2, ![800000, 1]⟩
abbrev S128x128 : Shape := ⟨2, ![128, 128]⟩
abbrev S128 : Shape := ⟨1, ![128]⟩
abbrev S128x64 : Shape := ⟨2, ![128, 64]⟩
abbrev S_ : Shape := ⟨0, ![]⟩
abbrev S800000x128 : Shape := ⟨2, ![800000, 128]⟩
abbrev S1x128 : Shape := ⟨2, ![1, 128]⟩
abbrev S800000x64 : Shape := ⟨2, ![800000, 64]⟩
abbrev S64x128 : Shape := ⟨2, ![64, 128]⟩

abbrev nBuf : Space → Nat
  | .hbm => 54
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S100000x64, .f32⟩
  | .hbm, ⟨2, _⟩ => ⟨S800000, .i32⟩
  | .hbm, ⟨3, _⟩ => ⟨S800000, .i32⟩
  | .hbm, ⟨4, _⟩ => ⟨S800000x1, .f32⟩
  | .hbm, ⟨5, _⟩ => ⟨S800000, .i32⟩
  | .hbm, ⟨6, _⟩ => ⟨S800000, .i32⟩
  | .hbm, ⟨7, _⟩ => ⟨S800000x1, .f32⟩
  | .hbm, ⟨8, _⟩ => ⟨S128x128, .f32⟩
  | .hbm, ⟨9, _⟩ => ⟨S128, .f32⟩
  | .hbm, ⟨10, _⟩ => ⟨S128x64, .f32⟩
  | .hbm, ⟨11, _⟩ => ⟨S128, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S128x128, .f32⟩
  | .hbm, ⟨22, _⟩ => ⟨S800000x128, .f32⟩
  | .hbm, ⟨23, _⟩ => ⟨S1x128, .f32⟩
  | .hbm, ⟨24, _⟩ => ⟨S800000x128, .f32⟩
  | .hbm, ⟨25, _⟩ => ⟨S800000x128, .f32⟩
  | .hbm, ⟨26, _⟩ => ⟨S800000x128, .f32⟩
  | .hbm, ⟨27, _⟩ => ⟨S800000x128, .f32⟩
  | .hbm, ⟨28, _⟩ => ⟨S_, .f32⟩
  | .hbm, ⟨29, _⟩ => ⟨S50000x128, .f32⟩
  | .hbm, ⟨30, _⟩ => ⟨S800000x1, .i32⟩
  | .hbm, ⟨31, _⟩ => ⟨S50000x128, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x64, .f32⟩
  | .hbm, ⟨41, _⟩ => ⟨S64x128, .f32⟩
  | .hbm, ⟨42, _⟩ => ⟨S800000x128, .f32⟩
  | .hbm, ⟨43, _⟩ => ⟨S1x128, .f32⟩
  | .hbm, ⟨44, _⟩ => ⟨S800000x128, .f32⟩
  | .hbm, ⟨45, _⟩ => ⟨S800000x128, .f32⟩
  | .hbm, ⟨46, _⟩ => ⟨S800000x128, .f32⟩
  | .hbm, ⟨47, _⟩ => ⟨S800000x128, .f32⟩
  | .hbm, ⟨48, _⟩ => ⟨S_, .f32⟩
  | .hbm, ⟨49, _⟩ => ⟨S50000x128, .f32⟩
  | .hbm, ⟨50, _⟩ => ⟨S800000x1, .i32⟩
  | .hbm, ⟨51, _⟩ => ⟨S50000x128, .f32⟩
  | .hbm, ⟨52, _⟩ => ⟨S50000x128, .f32⟩
  | .hbm, ⟨53, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_1 : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  transposes_S128x128_S128x128_1_0 : S128x128.Transposes [1, 0] S128x128
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  transposes_S128x64_S64x128_1_0 : S128x64.Transposes [1, 0] S64x128
  gather_S50000x128_S800000x1_S800000x128_1_0_n_n_0_1_1128_wf : GatherDims.WF S50000x128 S800000x1 S800000x128 [1] [0] [] [0] [] 1 ![1, 128]
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  gather_S100000x64_S800000x1_S800000x64_1_0_n_n_0_1_164_wf : GatherDims.WF S100000x64 S800000x1 S800000x64 [1] [0] [] [0] [] 1 ![1, 64]
  dot_S800000x64_S64x128_S800000x128_1_0_0_1_n_n_wf : DotDims.WF S800000x64 S64x128 S800000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def dot_S800000x64_S64x128_S800000x128_1_0_0_1_n_n : DotDims S800000x64 S64x128 S800000x128 where
  lhsContracting := [1]
  rhsContracting := [0]
  lhsNonContracting := [0]
  rhsNonContracting := [1]
  lhsBatch := []
  rhsBatch := []
  wf := dot_S800000x64_S64x128_S800000x128_1_0_0_1_n_n_wf

class Facts : Prop extends Facts₀ where

variable [Facts]
-- ==== Proof.Spec.lean ====
/-
  The mathematics shared by the two programs, over the extended reals and literal index types, with no program imported.

  * `lin X W b`: the affine map `x ↦ W x + b` applied to every row of `X`: entry `(i, f)` is
    `∑ₖ X[i, k] · W[f, k] + b[0, f]` (the weights are stored output-major, the bias as one row).
  * `rowDims M C E`: the dimension numbers of a gather of whole rows of an `[M, C]` array at `E` start indices
    (`x[idx]` for a rank-2 `x`), and `gather_rows_apply`: that gather read at `(e, f)` is the operand at
    `(clampRow (idx[e, 0]), f)` — the start index read signed and clamped into `[0, M − 1]`, the column unchanged.
    The clamped row depends on `M` only, not on the row length `C`: this is what lets a gather of rows of
    `lin X W b` be compared with `lin` of the gathered rows of `X`.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The affine map `x ↦ W x + b` on every row of `X`: entry `(i, f)` is `∑ₖ X[i, k] · W[f, k] + b[0, f]`. -/
def lin {M K N : Nat} (X : (⟨2, ![M, K]⟩ : Shape).Idx → EReal) (W : (⟨2, ![N, K]⟩ : Shape).Idx → EReal)
    (b : (⟨2, ![1, N]⟩ : Shape).Idx → EReal) : (⟨2, ![M, N]⟩ : Shape).Idx → EReal :=
  fun i => (∑ k : Fin K, X (ix2 (⟨(i 0).val, idx2_lt0 i⟩ : Fin M) k) * W (ix2 (⟨(i 1).val, idx2_lt1 i⟩ : Fin N) k))
    + b (ix2 (0 : Fin 1) (⟨(i 1).val, idx2_lt1 i⟩ : Fin N))

theorem lin_apply {M K N : Nat} (X : (⟨2, ![M, K]⟩ : Shape).Idx → EReal) (W : (⟨2, ![N, K]⟩ : Shape).Idx → EReal)
    (b : (⟨2, ![1, N]⟩ : Shape).Idx → EReal) (p : Fin M) (q : Fin N) :
    lin X W b (ix2 p q) = (∑ k : Fin K, X (ix2 p k) * W (ix2 q k)) + b (ix2 (0 : Fin 1) q) := rfl

/-- The product of two arrays under the hyperbolic tangent, entry by entry. -/
def comb {S : Shape} (a b : S.Idx → EReal) : S.Idx → EReal := fun i => Ideal.tanh (a i * b i)

/-- The dimension numbers of a gather of whole rows: operand `[M, C]`, start indices `[E, 1]`, result `[E, C]`; axis 0
    collapsed and indexed, axis 1 the offset axis with the whole row as slice. -/
abbrev rowDims (M C E : Nat) (wf : GatherDims.WF ⟨2, ![M, C]⟩ ⟨2, ![E, 1]⟩ ⟨2, ![E, C]⟩ [1] [0] [] [0] [] 1 ![1, C]) :
    GatherDims ⟨2, ![M, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- A start index read as a signed integer and clamped into `[0, M − 1]`. -/
def clampRow (M : Nat) (hM : 0 < M) {w : Nat} (v : BitVec w) : Fin M := ⟨min v.toInt.toNat (M - 1), by omega⟩

/-- THE ROW GATHER READ AT `(e, f)`: the operand at row `clampRow (idx[e, 0])`, column `f`. -/
theorem gather_rows_apply {α : Type} {M C E w : Nat} (hM : 0 < M)
    (wf : GatherDims.WF ⟨2, ![M, C]⟩ ⟨2, ![E, 1]⟩ ⟨2, ![E, C]⟩ [1] [0] [] [0] [] 1 ![1, C])
    (x : (⟨2, ![M, C]⟩ : Shape).Idx → α) (idx : IVec ⟨2, ![E, 1]⟩ w) (e : Fin E) (f : Fin C) :
    Host.gather (rowDims M C E wf) x idx (ix2 e f) = x (ix2 (clampRow M hM (idx (ix2 e (0 : Fin 1)))) f) := by
  unfold Host.gather
  congr 1
  funext a
  refine Fin.ext ?_
  match a with
  | ⟨0, _⟩ =>
    show (rowDims M C E wf).start (ix2 e f) idx 0 + (rowDims M C E wf).batchCoord (ix2 e f) 0
      + (rowDims M C E wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims M C E wf).startIndexMap from List.mem_singleton.mpr rfl)]
    have hsi : (rowDims M C E wf).siIdx (ix2 e f) ⟨List.idxOf (0 : Fin 2) (rowDims M C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims M C E wf).start (ix2 e f) idx 1 + (rowDims M C E wf).batchCoord (ix2 e f) 1
      + (rowDims M C E wf).offCoord (ix2 e f) 1 = f.val
    rw [GatherDims.batchCoord_eq_zero _ _ _ List.not_mem_nil]
    unfold GatherDims.start
    rw [dif_neg (show ¬ (1 : Fin 2) ∈ (rowDims M C E wf).startIndexMap from (by decide : ¬ (1 : Fin 2) ∈ [(0 : Fin 2)]))]
    unfold GatherDims.offCoord
    rw [dif_pos (show (1 : Fin 2) ∈ (rowDims M C E wf).sKept from
      (GatherDims.mem_sKept _ _).mpr ⟨(by decide : ¬ (1 : Fin 2) ∈ [(0 : Fin 2)]), List.not_mem_nil⟩)]
    rw [Nat.zero_add]
    rfl

end Cert.Spec

end
-- ==== Proof.KLin0.lean ====
/-
  Region 0 of the kernel: ten grid points, point `t` holding rows `5000 t … 5000 t + 4999` of the node features, the whole
  weight matrix and the bias row, and writing the same rows of the result. Its body is `x · wᵀ + b` on the block
  (a matrix product into a zero accumulator, the bias row broadcast down the rows; the roundings on the way into the
  product are the identity on extended reals). Read entry by entry the block result is `Cert.Spec.lin` of the blocks; each
  block entry is an entry of the array under it; and the ten row blocks cover the result array. So after the region the
  result array is `lin` of the three operand arrays as the region found them.
-/
import proofs.«145003_j30657476559413_1_alg».proof.Proof.Gen.KernelIdeal.Frame
import proofs.«145003_j30657476559413_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Lin0

open Cert.KernelIdeal Cert.KernelIdeal.Gen Idealize.ShloMosaic Idealize.ShloMosaic.TcCoe Idealize.SL.Sem
open Idealize.ShloMosaic.Pipeline (Dat)
open Idealize.ShloMosaic.ValueIdx Cert.Spec

theorem hz : (![0, 0] : Fin 2 → Nat) = fun _ => 0 := funext fun a => by fin_cases a <;> rfl

/-! ## The body's arithmetic at an entry -/

/-- Output row and contraction coordinate of the left operand index of the block product. -/
theorem lhs_0 (i : S5000x128.Idx) (κ : dot_S5000x128_S128x128_S5000x128_1_0_0_1_n_n.contr.Idx) :
    (dot_S5000x128_S128x128_S5000x128_1_0_0_1_n_n.lhsIdx i κ 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem lhs_1 (i : S5000x128.Idx) (κ : dot_S5000x128_S128x128_S5000x128_1_0_0_1_n_n.contr.Idx) :
    (dot_S5000x128_S128x128_S5000x128_1_0_0_1_n_n.lhsIdx i κ 1).val = (κ ⟨0, by decide⟩).val :=
  dot_S5000x128_S128x128_S5000x128_1_0_0_1_n_n.lhsIdx_val_of_single rfl i κ
/-- Contraction coordinate and output column of the right operand index. -/
theorem rhs_0 (i : S5000x128.Idx) (κ : dot_S5000x128_S128x128_S5000x128_1_0_0_1_n_n.contr.Idx) :
    (dot_S5000x128_S128x128_S5000x128_1_0_0_1_n_n.rhsIdx i κ 0).val = (κ ⟨0, by decide⟩).val :=
  dot_S5000x128_S128x128_S5000x128_1_0_0_1_n_n.rhsIdx_val_of_single rfl i κ
theorem rhs_1 (i : S5000x128.Idx) (κ : dot_S5000x128_S128x128_S5000x128_1_0_0_1_n_n.contr.Idx) :
    (dot_S5000x128_S128x128_S5000x128_1_0_0_1_n_n.rhsIdx i κ 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The left operand index of the block product at output entry `(p, q)` and contraction coordinate `k` is `(p, k)`. -/
theorem lhsIdx_eq (p : Fin 5000) (q : Fin 128) (k : Fin 128) :
    dot_S5000x128_S128x128_S5000x128_1_0_0_1_n_n.lhsIdx (ix2 p q)
      ((contrEquiv1 dot_S5000x128_S128x128_S5000x128_1_0_0_1_n_n 128 rfl rfl).symm k) = ix2 p k := by
  have hk := contrEquiv1_symm_val dot_S5000x128_S128x128_S5000x128_1_0_0_1_n_n 128 rfl rfl k
  funext a
  refine Fin.ext ?_
  match a with
  | ⟨0, _⟩ => exact lhs_0 _ _
  | ⟨1, _⟩ => exact (lhs_1 _ _).trans hk

/-- The right operand index there is `(k, q)`. -/
theorem rhsIdx_eq (p : Fin 5000) (q : Fin 128) (k : Fin 128) :
    dot_S5000x128_S128x128_S5000x128_1_0_0_1_n_n.rhsIdx (ix2 p q)
      ((contrEquiv1 dot_S5000x128_S128x128_S5000x128_1_0_0_1_n_n 128 rfl rfl).symm k) = ix2 k q := by
  have hk := contrEquiv1_symm_val dot_S5000x128_S128x128_S5000x128_1_0_0_1_n_n 128 rfl rfl k
  funext a
  refine Fin.ext ?_
  match a with
  | ⟨0, _⟩ => exact (rhs_0 _ _).trans hk
  | ⟨1, _⟩ => exact rhs_1 _ _

/-- The body's stored value at entry `(p, q)` of the block: row `p` of the feature block against row `q` of the weights,
    plus entry `q` of the bias row. -/
theorem pay_apply (x0 : Vec Ideal S5000x128 .f32) (x1 : Vec Ideal S128x128 .f32) (x2 : Vec Ideal S1x128 .f32)
    (p : Fin 5000) (q : Fin 128) :
    k0_pay1 x0 x1 x2 (ix2 p q) = (∑ k : Fin 128, x0 (ix2 p k) * x1 (ix2 q k)) + x2 (ix2 (0 : Fin 1) q) := by
  unfold k0_pay1
  refine (addf_apply _ _ _).trans ?_
  refine congrArg₂ (· + ·) ?_ ?_
  · refine (Ideal.matmul_constant_zero_apply dot_S5000x128_S128x128_S5000x128_1_0_0_1_n_n none _ _ (ix2 p q)).trans ?_
    rw [← Equiv.sum_comp (contrEquiv1 dot_S5000x128_S128x128_S5000x128_1_0_0_1_n_n 128 rfl rfl).symm]
    refine Finset.sum_congr rfl fun k _ => ?_
    rw [lhsIdx_eq p q k, rhsIdx_eq p q k]
    refine congrArg₂ (· * ·) rfl ?_
    exact transpose_apply [1, 0] _ transposes_S128x128_p1_0_S128x128 (ix2 k q) (ix2 q k) (fun b => match b with
      | ⟨0, _⟩ => rfl
      | ⟨1, _⟩ => rfl)
  · refine (broadcastTo_apply _ broadcasts_S1x128_S5000x128 (ix2 p q) (ix2 (0 : Fin 1) q) (fun a => match a with
      | ⟨0, _⟩ => by show (0 : Nat) = if (1 : Nat) = 1 then 0 else p.val; rw [if_pos rfl]
      | ⟨1, _⟩ => by show q.val = if (128 : Nat) = 1 then 0 else q.val; rw [if_neg (by decide)])).trans ?_
    rw [shapeCast_self]

/-- What the body leaves in the output block, entry by entry. -/
theorem out_apply (x0 : Vec Ideal S5000x128 .f32) (x1 : Vec Ideal S128x128 .f32) (x2 : Vec Ideal S1x128 .f32)
    (y : S5000x128.Idx) :
    out0_3 x0 x1 x2 y = (∑ k : Fin 128, x0 (ix2 (⟨(y 0).val, idx2_lt0 y⟩ : Fin 5000) k) * x1 (ix2 (⟨(y 1).val, idx2_lt1 y⟩ : Fin 128) k))
      + x2 (ix2 (0 : Fin 1) (⟨(y 1).val, idx2_lt1 y⟩ : Fin 128)) := by
  unfold out0_3
  rw [View.canon_unit_zero hz]
  simp only [View.ld_unit_zero (S := S5000x128) hz, View.ld_unit_zero (S := S128x128) hz, View.ld_unit_zero (S := S1x128) hz]
  obtain ⟨p, q, rfl⟩ : ∃ (p : Fin 5000) (q : Fin 128), y = ix2 p q := ⟨y 0, y 1, eq_ix2 y⟩
  exact pay_apply x0 x1 x2 p q

/-! ## The blocks are blocks of the arrays -/

section
variable (V : (c : Dev nD) → (b : Ref sig .tc) → Buf (Elt Ideal) ((c : Thread nD τ).loc b))

/-- The printed index maps over the grid: the feature and result windows move one row block per point, the weight and bias
    windows stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Entry `y` of the feature block at point `t` is entry `(5000 t + y₀, y₁)` of the feature array. -/
theorem iblk_feat (c : Dev nD) (t : Fin cfg0.N) (y : S5000x128.Idx) (i : S50000x128.Idx)
    (h0 : (i 0).val = t.val * 5000 + (y 0).val) (h1 : (i 1).val = (y 1).val) :
    (iblk0 V c 0 t : Vec Ideal S5000x128 .f32) y = (V c main_arg0 : S50000x128.Idx → EReal) i := by
  obtain ⟨e0, e1, -⟩ := idx_facts t
  unfold iblk0
  rw [View.read_apply]
  show (V c main_arg0 : S50000x128.Idx → EReal) _ = _
  refine congrArg _ (funext fun a => Fin.ext ?_)
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega

/-- The weight block at any point is the weight array. -/
theorem iblk_wt (c : Dev nD) (t : Fin cfg0.N) (y : S128x128.Idx) :
    (iblk0 V c 1 t : Vec Ideal S128x128 .f32) y = (V c main_arg8 : S128x128.Idx → EReal) y := by
  obtain ⟨-, -, e2, e3, -⟩ := idx_facts t
  unfold iblk0
  rw [View.read_apply]
  show (V c main_arg8 : S128x128.Idx → EReal) _ = _
  refine congrArg _ (funext fun a => Fin.ext ?_)
  match a with
  | ⟨0, _⟩ => show win0_1.index t (0 : Fin 2) * 128 + 1 * (y 0).val = (y 0).val; rw [e2]; omega
  | ⟨1, _⟩ => show win0_1.index t (1 : Fin 2) * 128 + 1 * (y 1).val = (y 1).val; rw [e3]; omega

/-- The bias block at any point is the bias row. -/
theorem iblk_bias (c : Dev nD) (t : Fin cfg0.N) (y : S1x128.Idx) :
    (iblk0 V c 2 t : Vec Ideal S1x128 .f32) y = (V c main_v0 : S1x128.Idx → EReal) y := by
  obtain ⟨-, -, -, -, e4, e5, -⟩ := idx_facts t
  unfold iblk0
  rw [View.read_apply]
  show (V c main_v0 : S1x128.Idx → EReal) _ = _
  refine congrArg _ (funext fun a => Fin.ext ?_)
  match a with
  | ⟨0, _⟩ => show win0_2.index t (0 : Fin 2) * 1 + 1 * (y 0).val = (y 0).val; rw [e4]; omega
  | ⟨1, _⟩ => show win0_2.index t (1 : Fin 2) * 128 + 1 * (y 1).val = (y 1).val; rw [e5]; omega

/-! ## The result array -/

/-- What the result array ends holding: the affine map of the feature rows, of the operand arrays as the region finds them. -/
def G (c : Dev nD) : S50000x128.Idx → EReal :=
  lin (M := 50000) (K := 128) (N := 128) (V c main_arg0) (V c main_arg8) (V c main_v0)

/-- WHAT POINT `t` WRITES BACK is block `t` of `G`. -/
theorem flushed_eq (c : Dev nD) (t : Fin cfg0.N) :
    (dat0 V c).flushed 3 t = ((cfg0.win 3).blk t).view.read (Elt Ideal) (G V c) := by
  show (cfg0.win 3).cut (grid0.coords t) ((dat0 V c).after 3 t) = _
  rw [after0_3]
  obtain ⟨-, -, -, -, -, -, e6, e7⟩ := idx_facts t
  funext j
  show out0_3 (iblk0 V c 0 t) (iblk0 V c 1 t) (iblk0 V c 2 t) j = G V c (((cfg0.win 3).blk t).view.emb j)
  refine (out_apply (iblk0 V c 0 t) (iblk0 V c 1 t) (iblk0 V c 2 t) j).trans ?_
  unfold G lin
  refine congrArg₂ (· + ·) (Finset.sum_congr rfl fun k _ => congrArg₂ (· * ·) ?_ ?_) ?_
  · refine iblk_feat V c t _ _ ?_ rfl
    show win0_3.index t (0 : Fin 2) * 5000 + 1 * (j 0).val = t.val * 5000 + (j 0).val
    rw [e6]; omega
  · refine (iblk_wt V c t _).trans (congrArg _ (funext fun a => Fin.ext ?_))
    match a with
    | ⟨0, _⟩ => show (j 1).val = win0_3.index t (1 : Fin 2) * 128 + 1 * (j 1).val; rw [e7]; omega
    | ⟨1, _⟩ => rfl
  · refine (iblk_bias V c t _).trans (congrArg _ (funext fun a => Fin.ext ?_))
    match a with
    | ⟨0, _⟩ => rfl
    | ⟨1, _⟩ => show (j 1).val = win0_3.index t (1 : Fin 2) * 128 + 1 * (j 1).val; rw [e7]; omega

/-- An index of the result array is in point `t`'s block iff each coordinate is in the block's range on its axis. -/
theorem mem_blk (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v1).slice (win0_3.rect t)).set ↔ _
  rw [View.set_slice_whole, Rect.mem_set_unit]
  exact Iff.rfl

/-- Every row block is some point's. -/
theorem idx_onto : ∀ q0 : Fin 10, ∃ t : Fin cfg0.N, win0_3.index t = ![q0.val, 0] :=
  (by decide +kernel : ∀ q0 : Fin 10, ∃ t : Fin grid0.N, win0_3.index t = ![q0.val, 0])

/-- The ten row blocks cover the result array: row `r` is in the block of point `r / 5000`. -/
theorem cover (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- THE RESULT ARRAY after the region is `G`. -/
theorem arr_eq (c : Dev nD) : (dat0 V c).arrAt 3 cfg0.N = G V c :=
  (dat0 V c).arrAt_eq_of_cover 3 (G V c) (fun t _ => flushed_eq V c t) cover

end

end Cert.KernelIdeal.Lin0

end
-- ==== Proof.KLin1.lean ====
/-
  Region 1 of the kernel: ten grid points, point `t` holding rows `10000 t … 10000 t + 9999` of the hyperedge features, the whole
  weight matrix and the bias row, and writing the same rows of the result. Its body is `x · wᵀ + b` on the block
  (a matrix product into a zero accumulator, the bias row broadcast down the rows; the roundings on the way into the
  product are the identity on extended reals). Read entry by entry the block result is `Cert.Spec.lin` of the blocks; each
  block entry is an entry of the array under it; and the ten row blocks cover the result array. So after the region the
  result array is `lin` of the three operand arrays as the region found them.
-/
import proofs.«145003_j30657476559413_1_alg».proof.Proof.Gen.KernelIdeal.Frame
import proofs.«145003_j30657476559413_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Lin1

open Cert.KernelIdeal Cert.KernelIdeal.Gen Idealize.ShloMosaic Idealize.ShloMosaic.TcCoe Idealize.SL.Sem
open Idealize.ShloMosaic.Pipeline (Dat)
open Idealize.ShloMosaic.ValueIdx Cert.Spec

theorem hz : (![0, 0] : Fin 2 → Nat) = fun _ => 0 := funext fun a => by fin_cases a <;> rfl

/-! ## The body's arithmetic at an entry -/

/-- Output row and contraction coordinate of the left operand index of the block product. -/
theorem lhs_0 (i : S10000x128.Idx) (κ : dot_S10000x64_S64x128_S10000x128_1_0_0_1_n_n.contr.Idx) :
    (dot_S10000x64_S64x128_S10000x128_1_0_0_1_n_n.lhsIdx i κ 0).val = (i 0).val := by
  unfold DotDims.lhsIdx
  rw [dif_neg (show ¬(0 : Fin S10000x64.rank) ∈ dot_S10000x64_S64x128_S10000x128_1_0_0_1_n_n.lhsBatch by decide),
    dif_pos (show (0 : Fin S10000x64.rank) ∈ dot_S10000x64_S64x128_S10000x128_1_0_0_1_n_n.lhsNonContracting by decide)]
  rfl
theorem lhs_1 (i : S10000x128.Idx) (κ : dot_S10000x64_S64x128_S10000x128_1_0_0_1_n_n.contr.Idx) :
    (dot_S10000x64_S64x128_S10000x128_1_0_0_1_n_n.lhsIdx i κ 1).val = (κ ⟨0, by decide⟩).val :=
  dot_S10000x64_S64x128_S10000x128_1_0_0_1_n_n.lhsIdx_val_of_single rfl i κ
/-- Contraction coordinate and output column of the right operand index. -/
theorem rhs_0 (i : S10000x128.Idx) (κ : dot_S10000x64_S64x128_S10000x128_1_0_0_1_n_n.contr.Idx) :
    (dot_S10000x64_S64x128_S10000x128_1_0_0_1_n_n.rhsIdx i κ 0).val = (κ ⟨0, by decide⟩).val :=
  dot_S10000x64_S64x128_S10000x128_1_0_0_1_n_n.rhsIdx_val_of_single rfl i κ
theorem rhs_1 (i : S10000x128.Idx) (κ : dot_S10000x64_S64x128_S10000x128_1_0_0_1_n_n.contr.Idx) :
    (dot_S10000x64_S64x128_S10000x128_1_0_0_1_n_n.rhsIdx i κ 1).val = (i 1).val := by
  unfold DotDims.rhsIdx
  rw [dif_neg (show ¬(1 : Fin S64x128.rank) ∈ dot_S10000x64_S64x128_S10000x128_1_0_0_1_n_n.rhsBatch by decide),
    dif_pos (show (1 : Fin S64x128.rank) ∈ dot_S10000x64_S64x128_S10000x128_1_0_0_1_n_n.rhsNonContracting by decide)]
  rfl

/-- The left operand index of the block product at output entry `(p, q)` and contraction coordinate `k` is `(p, k)`. -/
theorem lhsIdx_eq (p : Fin 10000) (q : Fin 128) (k : Fin 64) :
    dot_S10000x64_S64x128_S10000x128_1_0_0_1_n_n.lhsIdx (ix2 p q)
      ((contrEquiv1 dot_S10000x64_S64x128_S10000x128_1_0_0_1_n_n 64 rfl rfl).symm k) = ix2 p k := by
  have hk := contrEquiv1_symm_val dot_S10000x64_S64x128_S10000x128_1_0_0_1_n_n 64 rfl rfl k
  funext a
  refine Fin.ext ?_
  match a with
  | ⟨0, _⟩ => exact lhs_0 _ _
  | ⟨1, _⟩ => exact (lhs_1 _ _).trans hk

/-- The right operand index there is `(k, q)`. -/
theorem rhsIdx_eq (p : Fin 10000) (q : Fin 128) (k : Fin 64) :
    dot_S10000x64_S64x128_S10000x128_1_0_0_1_n_n.rhsIdx (ix2 p q)
      ((contrEquiv1 dot_S10000x64_S64x128_S10000x128_1_0_0_1_n_n 64 rfl rfl).symm k) = ix2 k q := by
  have hk := contrEquiv1_symm_val dot_S10000x64_S64x128_S10000x128_1_0_0_1_n_n 64 rfl rfl k
  funext a
  refine Fin.ext ?_
  match a with
  | ⟨0, _⟩ => exact (rhs_0 _ _).trans hk
  | ⟨1, _⟩ => exact rhs_1 _ _

/-- The body's stored value at entry `(p, q)` of the block: row `p` of the feature block against row `q` of the weights,
    plus entry `q` of the bias row. -/
theorem pay_apply (x0 : Vec Ideal S10000x64 .f32) (x1 : Vec Ideal S128x64 .f32) (x2 : Vec Ideal S1x128 .f32)
    (p : Fin 10000) (q : Fin 128) :
    k1_pay1 x0 x1 x2 (ix2 p q) = (∑ k : Fin 64, x0 (ix2 p k) * x1 (ix2 q k)) + x2 (ix2 (0 : Fin 1) q) := by
  unfold k1_pay1
  refine (addf_apply _ _ _).trans ?_
  refine congrArg₂ (· + ·) ?_ ?_
  · refine (Ideal.matmul_constant_zero_apply dot_S10000x64_S64x128_S10000x128_1_0_0_1_n_n none _ _ (ix2 p q)).trans ?_
    rw [← Equiv.sum_comp (contrEquiv1 dot_S10000x64_S64x128_S10000x128_1_0_0_1_n_n 64 rfl rfl).symm]
    refine Finset.sum_congr rfl fun k _ => ?_
    rw [lhsIdx_eq p q k, rhsIdx_eq p q k]
    refine congrArg₂ (· * ·) rfl ?_
    exact transpose_apply [1, 0] _ transposes_S128x64_p1_0_S64x128 (ix2 k q) (ix2 q k) (fun b => match b with
      | ⟨0, _⟩ => rfl
      | ⟨1, _⟩ => rfl)
  · refine (broadcastTo_apply _ broadcasts_S1x128_S10000x128 (ix2 p q) (ix2 (0 : Fin 1) q) (fun a => match a with
      | ⟨0, _⟩ => by show (0 : Nat) = if (1 : Nat) = 1 then 0 else p.val; rw [if_pos rfl]
      | ⟨1, _⟩ => by show q.val = if (128 : Nat) = 1 then 0 else q.val; rw [if_neg (by decide)])).trans ?_
    rw [shapeCast_self]

/-- What the body leaves in the output block, entry by entry. -/
theorem out_apply (x0 : Vec Ideal S10000x64 .f32) (x1 : Vec Ideal S128x64 .f32) (x2 : Vec Ideal S1x128 .f32)
    (y : S10000x128.Idx) :
    out1_3 x0 x1 x2 y = (∑ k : Fin 64, x0 (ix2 (⟨(y 0).val, idx2_lt0 y⟩ : Fin 10000) k) * x1 (ix2 (⟨(y 1).val, idx2_lt1 y⟩ : Fin 128) k))
      + x2 (ix2 (0 : Fin 1) (⟨(y 1).val, idx2_lt1 y⟩ : Fin 128)) := by
  unfold out1_3
  rw [View.canon_unit_zero hz]
  simp only [View.ld_unit_zero (S := S10000x64) hz, View.ld_unit_zero (S := S128x64) hz, View.ld_unit_zero (S := S1x128) hz]
  obtain ⟨p, q, rfl⟩ : ∃ (p : Fin 10000) (q : Fin 128), y = ix2 p q := ⟨y 0, y 1, eq_ix2 y⟩
  exact pay_apply x0 x1 x2 p q

/-! ## The blocks are blocks of the arrays -/

section
variable (V : (c : Dev nD) → (b : Ref sig .tc) → Buf (Elt Ideal) ((c : Thread nD τ).loc b))

/-- The printed index maps over the grid: the feature and result windows move one row block per point, the weight and bias
    windows stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Entry `y` of the feature block at point `t` is entry `(10000 t + y₀, y₁)` of the feature array. -/
theorem iblk_feat (c : Dev nD) (t : Fin cfg1.N) (y : S10000x64.Idx) (i : S100000x64.Idx)
    (h0 : (i 0).val = t.val * 10000 + (y 0).val) (h1 : (i 1).val = (y 1).val) :
    (iblk1 V c 0 t : Vec Ideal S10000x64 .f32) y = (V c main_arg1 : S100000x64.Idx → EReal) i := by
  obtain ⟨e0, e1, -⟩ := idx_facts t
  unfold iblk1
  rw [View.read_apply]
  show (V c main_arg1 : S100000x64.Idx → EReal) _ = _
  refine congrArg _ (funext fun a => Fin.ext ?_)
  match a with
  | ⟨0, _⟩ => show win1_0.index t (0 : Fin 2) * 10000 + 1 * (y 0).val = (i 0).val; rw [e0, h0]; omega
  | ⟨1, _⟩ => show win1_0.index t (1 : Fin 2) * 64 + 1 * (y 1).val = (i 1).val; rw [e1, h1]; omega

/-- The weight block at any point is the weight array. -/
theorem iblk_wt (c : Dev nD) (t : Fin cfg1.N) (y : S128x64.Idx) :
    (iblk1 V c 1 t : Vec Ideal S128x64 .f32) y = (V c main_arg10 : S128x64.Idx → EReal) y := by
  obtain ⟨-, -, e2, e3, -⟩ := idx_facts t
  unfold iblk1
  rw [View.read_apply]
  show (V c main_arg10 : S128x64.Idx → EReal) _ = _
  refine congrArg _ (funext fun a => Fin.ext ?_)
  match a with
  | ⟨0, _⟩ => show win1_1.index t (0 : Fin 2) * 128 + 1 * (y 0).val = (y 0).val; rw [e2]; omega
  | ⟨1, _⟩ => show win1_1.index t (1 : Fin 2) * 64 + 1 * (y 1).val = (y 1).val; rw [e3]; omega

/-- The bias block at any point is the bias row. -/
theorem iblk_bias (c : Dev nD) (t : Fin cfg1.N) (y : S1x128.Idx) :
    (iblk1 V c 2 t : Vec Ideal S1x128 .f32) y = (V c main_v2 : S1x128.Idx → EReal) y := by
  obtain ⟨-, -, -, -, e4, e5, -⟩ := idx_facts t
  unfold iblk1
  rw [View.read_apply]
  show (V c main_v2 : S1x128.Idx → EReal) _ = _
  refine congrArg _ (funext fun a => Fin.ext ?_)
  match a with
  | ⟨0, _⟩ => show win1_2.index t (0 : Fin 2) * 1 + 1 * (y 0).val = (y 0).val; rw [e4]; omega
  | ⟨1, _⟩ => show win1_2.index t (1 : Fin 2) * 128 + 1 * (y 1).val = (y 1).val; rw [e5]; omega

/-! ## The result array -/

/-- What the result array ends holding: the affine map of the feature rows, of the operand arrays as the region finds them. -/
def G (c : Dev nD) : S100000x128.Idx → EReal :=
  lin (M := 100000) (K := 64) (N := 128) (V c main_arg1) (V c main_arg10) (V c main_v2)

/-- WHAT POINT `t` WRITES BACK is block `t` of `G`. -/
theorem flushed_eq (c : Dev nD) (t : Fin cfg1.N) :
    (dat1 V c).flushed 3 t = ((cfg1.win 3).blk t).view.read (Elt Ideal) (G V c) := by
  show (cfg1.win 3).cut (grid1.coords t) ((dat1 V c).after 3 t) = _
  rw [after1_3]
  obtain ⟨-, -, -, -, -, -, e6, e7⟩ := idx_facts t
  funext j
  show out1_3 (iblk1 V c 0 t) (iblk1 V c 1 t) (iblk1 V c 2 t) j = G V c (((cfg1.win 3).blk t).view.emb j)
  refine (out_apply (iblk1 V c 0 t) (iblk1 V c 1 t) (iblk1 V c 2 t) j).trans ?_
  unfold G lin
  refine congrArg₂ (· + ·) (Finset.sum_congr rfl fun k _ => congrArg₂ (· * ·) ?_ ?_) ?_
  · refine iblk_feat V c t _ _ ?_ rfl
    show win1_3.index t (0 : Fin 2) * 10000 + 1 * (j 0).val = t.val * 10000 + (j 0).val
    rw [e6]; omega
  · refine (iblk_wt V c t _).trans (congrArg _ (funext fun a => Fin.ext ?_))
    match a with
    | ⟨0, _⟩ => show (j 1).val = win1_3.index t (1 : Fin 2) * 128 + 1 * (j 1).val; rw [e7]; omega
    | ⟨1, _⟩ => rfl
  · refine (iblk_bias V c t _).trans (congrArg _ (funext fun a => Fin.ext ?_))
    match a with
    | ⟨0, _⟩ => rfl
    | ⟨1, _⟩ => show (j 1).val = win1_3.index t (1 : Fin 2) * 128 + 1 * (j 1).val; rw [e7]; omega

/-- An index of the result array is in point `t`'s block iff each coordinate is in the block's range on its axis. -/
theorem mem_blk (t : Fin cfg1.N) (i : S100000x128.Idx) :
    i ∈ ((cfg1.win 3).blk t).view.set ↔ ∀ a : Fin 2, win1_3.index t a * S10000x128.size a ≤ (i a).val
      ∧ (i a).val < win1_3.index t a * S10000x128.size a + S10000x128.size a := by
  show i ∈ ((View.whole main_v3).slice (win1_3.rect t)).set ↔ _
  rw [View.set_slice_whole, Rect.mem_set_unit]
  exact Iff.rfl

/-- Every row block is some point's. -/
theorem idx_onto : ∀ q0 : Fin 10, ∃ t : Fin cfg1.N, win1_3.index t = ![q0.val, 0] :=
  (by decide +kernel : ∀ q0 : Fin 10, ∃ t : Fin grid1.N, win1_3.index t = ![q0.val, 0])

/-- The ten row blocks cover the result array: row `r` is in the block of point `r / 10000`. -/
theorem cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ := idx_onto ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 128 ≤ (i 1).val ∧ (i 1).val < win1_3.index t (1 : Fin 2) * 128 + 128; omega

/-- THE RESULT ARRAY after the region is `G`. -/
theorem arr_eq (c : Dev nD) : (dat1 V c).arrAt 3 cfg1.N = G V c :=
  (dat1 V c).arrAt_eq_of_cover 3 (G V c) (fun t _ => flushed_eq V c t) cover

end

end Cert.KernelIdeal.Lin1

end
-- ==== Proof.KComb.lean ====
/-
  Region 2 of the kernel: ten grid points, point `t` holding rows `5000 t … 5000 t + 4999` of its two operand arrays and
  writing the same rows of the result; the body multiplies the two blocks entry by entry and takes the hyperbolic tangent.
  So each result entry is `tanh (a · b)` of the operands' entries at the same index, and the ten row blocks cover the
  result array: after the region it is `Cert.Spec.comb` of the two operand arrays as the region found them.
-/
import proofs.«145003_j30657476559413_1_alg».proof.Proof.Gen.KernelIdeal.Frame
import proofs.«145003_j30657476559413_1_alg».proof.Proof.Spec
import Idealize.ShloMosaic.Lib.Pipeline.Value
import Idealize.ShloMosaic.Lib.ValueIdx

noncomputable section

namespace Cert.KernelIdeal.Comb

open Cert.KernelIdeal Cert.KernelIdeal.Gen Idealize.ShloMosaic Idealize.ShloMosaic.TcCoe Idealize.SL.Sem
open Idealize.ShloMosaic.Pipeline (Dat)
open Idealize.ShloMosaic.ValueIdx Cert.Spec

theorem hz : (![0, 0] : Fin 2 → Nat) = fun _ => 0 := funext fun a => by fin_cases a <;> rfl

/-- What the body leaves in the output block: the product of the two input blocks under `tanh`, entry by entry. -/
theorem out_eq (x0 x1 : Vec Ideal S5000x128 .f32) : out2_2 x0 x1 = comb x0 x1 := by
  unfold out2_2
  rw [View.canon_unit_zero hz]
  simp only [View.ld_unit_zero (S := S5000x128) hz]
  unfold k2_pay1
  simp only [shapeCast_self]
  rfl

section
variable (V : (c : Dev nD) → (b : Ref sig .tc) → Buf (Elt Ideal) ((c : Thread nD τ).loc b))

/-- The printed index maps over the grid: all three windows move one row block per point. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- Entry `y` of the first operand's block at point `t` is entry `(5000 t + y₀, y₁)` of its array. -/
theorem iblk_a (c : Dev nD) (t : Fin cfg2.N) (y : S5000x128.Idx) (i : S50000x128.Idx)
    (h0 : (i 0).val = t.val * 5000 + (y 0).val) (h1 : (i 1).val = (y 1).val) :
    (iblk2 V c 0 t : Vec Ideal S5000x128 .f32) y = (V c main_v27 : S50000x128.Idx → EReal) i := by
  obtain ⟨e0, e1, -⟩ := idx_facts t
  unfold iblk2
  rw [View.read_apply]
  show (V c main_v27 : S50000x128.Idx → EReal) _ = _
  refine congrArg _ (funext fun a => Fin.ext ?_)
  match a with
  | ⟨0, _⟩ => show win2_0.index t (0 : Fin 2) * 5000 + 1 * (y 0).val = (i 0).val; rw [e0, h0]; omega
  | ⟨1, _⟩ => show win2_0.index t (1 : Fin 2) * 128 + 1 * (y 1).val = (i 1).val; rw [e1, h1]; omega

/-- The same for the second operand. -/
theorem iblk_b (c : Dev nD) (t : Fin cfg2.N) (y : S5000x128.Idx) (i : S50000x128.Idx)
    (h0 : (i 0).val = t.val * 5000 + (y 0).val) (h1 : (i 1).val = (y 1).val) :
    (iblk2 V c 1 t : Vec Ideal S5000x128 .f32) y = (V c main_v15 : S50000x128.Idx → EReal) i := by
  obtain ⟨-, -, e2, e3, -⟩ := idx_facts t
  unfold iblk2
  rw [View.read_apply]
  show (V c main_v15 : S50000x128.Idx → EReal) _ = _
  refine congrArg _ (funext fun a => Fin.ext ?_)
  match a with
  | ⟨0, _⟩ => show win2_1.index t (0 : Fin 2) * 5000 + 1 * (y 0).val = (i 0).val; rw [e2, h0]; omega
  | ⟨1, _⟩ => show win2_1.index t (1 : Fin 2) * 128 + 1 * (y 1).val = (i 1).val; rw [e3, h1]; omega

/-- What the result array ends holding. -/
def G (c : Dev nD) : S50000x128.Idx → EReal :=
  comb (S := S50000x128) (V c main_v27) (V c main_v15)

/-- WHAT POINT `t` WRITES BACK is block `t` of `G`: the three windows' blocks at a point sit over the same rows. -/
theorem flushed_eq (c : Dev nD) (t : Fin cfg2.N) :
    (dat2 V c).flushed 2 t = ((cfg2.win 2).blk t).view.read (Elt Ideal) (G V c) := by
  show (cfg2.win 2).cut (grid2.coords t) ((dat2 V c).after 2 t) = _
  rw [after2_2, out_eq]
  obtain ⟨-, -, -, -, e4, e5⟩ := idx_facts t
  funext j
  show comb (S := S5000x128) (iblk2 V c 0 t) (iblk2 V c 1 t) j = G V c (((cfg2.win 2).blk t).view.emb j)
  unfold G comb
  show Ideal.tanh (_ * _) = Ideal.tanh (_ * _)
  refine congrArg Ideal.tanh (congrArg₂ (· * ·) ?_ ?_)
  · refine iblk_a V c t _ _ ?_ ?_
    · show win2_2.index t (0 : Fin 2) * 5000 + 1 * (j 0).val = t.val * 5000 + (j 0).val; rw [e4]; omega
    · show win2_2.index t (1 : Fin 2) * 128 + 1 * (j 1).val = (j 1).val; rw [e5]; omega
  · refine iblk_b V c t _ _ ?_ ?_
    · show win2_2.index t (0 : Fin 2) * 5000 + 1 * (j 0).val = t.val * 5000 + (j 0).val; rw [e4]; omega
    · show win2_2.index t (1 : Fin 2) * 128 + 1 * (j 1).val = (j 1).val; rw [e5]; omega

/-- An index of the result array is in point `t`'s block iff each coordinate is in the block's range on its axis. -/
theorem mem_blk (t : Fin cfg2.N) (i : S50000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v28).slice (win2_2.rect t)).set ↔ _
  rw [View.set_slice_whole, Rect.mem_set_unit]
  exact Iff.rfl

/-- Every row block is some point's. -/
theorem idx_onto : ∀ q0 : Fin 10, ∃ t : Fin cfg2.N, win2_2.index t = ![q0.val, 0] :=
  (by decide +kernel : ∀ q0 : Fin 10, ∃ t : Fin grid2.N, win2_2.index t = ![q0.val, 0])

/-- The ten row blocks cover the result array: row `r` is in the block of point `r / 5000`. -/
theorem cover (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := idx_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- THE RESULT ARRAY after the region is `G`. -/
theorem arr_eq (c : Dev nD) : (dat2 V c).arrAt 2 cfg2.N = G V c :=
  (dat2 V c).arrAt_eq_of_cover 2 (G V c) (fun t _ => flushed_eq V c t) cover

end

end Cert.KernelIdeal.Comb

end
-- ==== Proof.KTerm.lean ====
/-
  The value of the kernel's program as ONE function of its twelve arguments, over the extended reals.

  Both message branches have the same form: normalise the sender indices (a negative index counts from the end), gather
  the rows of the affine image of the features at those indices (`Cert.Spec.lin`: the affine map was applied to every
  row once, before the gather), scale row `e` by the edge's coefficient, and add the rows into their receivers' rows
  of a zero array (`agg`). The result is `tanh` of the product of the two aggregated arrays, entry by entry
  (`Cert.Spec.comb`).
-/
import proofs.«145003_j30657476559413_1_alg».proof.KernelIdeal
import proofs.«145003_j30657476559413_1_alg».proof.Proof.Gen.KernelIdeal
import proofs.«145003_j30657476559413_1_alg».proof.Proof.Spec

noncomputable section

namespace Cert.KernelIdeal.Term

open Cert.KernelIdeal Cert.KernelIdeal.Gen Idealize.ShloMosaic Cert.Spec

/-- The sender indices as start indices of a row gather from an array of `n` rows: an index below zero has `n` added. -/
def startIdx (n : BitVec 32) (x : IVec S800000 32) : IVec S800000x1 32 :=
  broadcastInDim S800000x1 ![0] bcast_S800000_S800000x1_0
    (select (cmpi .slt x (broadcastInDim S800000 ![] bcast_S_S800000 (constantI S_ 32 0#32)))
      (addi x (broadcastInDim S800000 ![] bcast_S_S800000 (constantI S_ 32 n))) x)

/-- Scale row `e` of the gathered messages `Y` by the edge's coefficient and add the rows into their receivers' rows of a
    zero array. -/
def agg (recv : IVec S800000 32) (conv : FVec Ideal S800000x1 .f32) (Y : FVec Ideal S800000x128 .f32) :
    FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 recv)
    (mulf (broadcastInDim S800000x128 ![0, 1] bcast_S800000x1_S800000x128_0_1 conv) Y)

/-- The affine image of the node features (weights `x8`, bias `x9` as one row). -/
def nodeMsg (x0 : FVec Ideal S50000x128 .f32) (x8 : FVec Ideal S128x128 .f32) (x9 : FVec Ideal S128 .f32) :
    FVec Ideal S50000x128 .f32 :=
  lin (M := 50000) (K := 128) (N := 128) x0 x8 (shapeCast S1x128 x9 shapeCasts_S128_S1x128)

/-- The affine image of the hyperedge features (weights `x10`, bias `x11` as one row). -/
def hedgeMsg (x1 : FVec Ideal S100000x64 .f32) (x10 : FVec Ideal S128x64 .f32) (x11 : FVec Ideal S128 .f32) :
    FVec Ideal S100000x128 .f32 :=
  lin (M := 100000) (K := 64) (N := 128) x1 x10 (shapeCast S1x128 x11 shapeCasts_S128_S1x128)

/-- The aggregated node messages. -/
def nodeAgg (x0 : FVec Ideal S50000x128 .f32) (x2 x3 : IVec S800000 32) (x4 : FVec Ideal S800000x1 .f32)
    (x8 : FVec Ideal S128x128 .f32) (x9 : FVec Ideal S128 .f32) : FVec Ideal S50000x128 .f32 :=
  agg x3 x4 (Host.gather gather_S50000x128_S800000x1_S800000x128_1_0_n_n_0_1_1128 (nodeMsg x0 x8 x9) (startIdx 50000#32 x2))

/-- The aggregated hyperedge messages. -/
def hedgeAgg (x1 : FVec Ideal S100000x64 .f32) (x5 x6 : IVec S800000 32) (x7 : FVec Ideal S800000x1 .f32)
    (x10 : FVec Ideal S128x64 .f32) (x11 : FVec Ideal S128 .f32) : FVec Ideal S50000x128 .f32 :=
  agg x6 x7 (Host.gather gather_S100000x128_S800000x1_S800000x128_1_0_n_n_0_1_1128 (hedgeMsg x1 x10 x11) (startIdx 100000#32 x5))

/-- THE RESULT as a function of the twelve arguments. -/
def result (x0 : FVec Ideal S50000x128 .f32) (x1 : FVec Ideal S100000x64 .f32) (x2 x3 : IVec S800000 32)
    (x4 : FVec Ideal S800000x1 .f32) (x5 x6 : IVec S800000 32) (x7 : FVec Ideal S800000x1 .f32)
    (x8 : FVec Ideal S128x128 .f32) (x9 : FVec Ideal S128 .f32) (x10 : FVec Ideal S128x64 .f32) (x11 : FVec Ideal S128 .f32) :
    FVec Ideal S50000x128 .f32 :=
  comb (hedgeAgg x1 x5 x6 x7 x10 x11) (nodeAgg x0 x2 x3 x4 x8 x9)

end Cert.KernelIdeal.Term

end
-- ==== Proof.KChain.lean ====
/-
  The kernel's program read end to end: what the result buffer holds at the last boundary of @main, as the function
  `Cert.KernelIdeal.Term.result` of the twelve arguments' launch contents.

  Walking back from the last region: its result array is `comb` of its two operand arrays (region 2); these were
  written by the host operations between the regions, as `agg` of rows gathered from the results of regions 1 and 0
  and of argument arrays; the regions' results are `lin` of their operands (regions 1 and 0), whose bias rows the
  host reshaped from the bias vectors; and no region and no host operation writes an argument array, so each is read back
  to its launch contents.
-/
import proofs.«145003_j30657476559413_1_alg».proof.Proof.Gen.KernelIdeal.Frame
import proofs.«145003_j30657476559413_1_alg».proof.Proof.KLin0
import proofs.«145003_j30657476559413_1_alg».proof.Proof.KLin1
import proofs.«145003_j30657476559413_1_alg».proof.Proof.KComb
import proofs.«145003_j30657476559413_1_alg».proof.Proof.KTerm
import Idealize.ShloMosaic.Lib.StableHlo.Run

noncomputable section

namespace Cert.KernelIdeal.Chain

open Cert.KernelIdeal Cert.KernelIdeal.Gen Idealize.ShloMosaic Idealize.ShloMosaic.TcCoe Idealize.SL.Sem
open Idealize.ShloMosaic.StableHlo
open Cert.Spec

variable (m : (ℓ : Loc nD τ sig) → Buf (Elt Ideal) ℓ) (ρ : Dev nD → PrngReg)

/-! ## What the host stretches leave alone -/

/-- The first stretch (one reshape, into `main_v0`) leaves every other buffer. -/
theorem ops0_ne (W : Valuation τ sig (Elt Ideal)) (b : Ref sig .tc) (h : b ≠ main_v0) :
    StableHlo.after hostOps0 W (Proc.devRef .tc b) = W (Proc.devRef .tc b) := by
  simp only [hostOps0, after_cons, after_nil]
  exact reshape_result_ne _ _ _ _ _ _ W h

/-- The second stretch (one reshape, into `main_v2`) leaves every other buffer. -/
theorem ops1_ne (W : Valuation τ sig (Elt Ideal)) (b : Ref sig .tc) (h : b ≠ main_v2) :
    StableHlo.after hostOps1 W (Proc.devRef .tc b) = W (Proc.devRef .tc b) := by
  simp only [hostOps1, after_cons, after_nil]
  exact reshape_result_ne _ _ _ _ _ _ W h

/-- A buffer that is no array of region 0 and not `main_v0` holds its launch contents when region 1's stretch begins. -/
theorem W2_kept (c : Dev nD) (b : Ref sig .tc) (h0 : b ≠ main_v0) (hs0 : ∀ w, Pipeline.arrRef spec0 w ≠ b) :
    W2 m ρ c (Proc.devRef .tc b) = m ((c : Thread nD τ).loc b) :=
  (W2_of_ne m ρ c b hs0).trans (ops0_ne (W0 m ρ c) b h0)

/-- A buffer that is no array of regions 0 and 1 and neither reshaped bias row holds its launch contents when the
    long stretch begins. -/
theorem W4_kept (c : Dev nD) (b : Ref sig .tc) (h0 : b ≠ main_v0) (h2 : b ≠ main_v2)
    (hs0 : ∀ w, Pipeline.arrRef spec0 w ≠ b) (hs1 : ∀ w, Pipeline.arrRef spec1 w ≠ b) :
    W4 m ρ c (Proc.devRef .tc b) = m ((c : Thread nD τ).loc b) :=
  (W4_of_ne m ρ c b hs1).trans ((ops1_ne (W2 m ρ c) b h2).trans (W2_kept m ρ c b h0 hs0))

/-! ## The regions' operands -/

/-- Region 0's bias row: the bias vector reshaped to one row. -/
theorem V1_bias (c : Dev nD) :
    (V1 m ρ c main_v0 : S1x128.Idx → EReal) = shapeCast S1x128 (m ((c : Thread nD τ).loc main_arg9)) shapeCasts_S128_S1x128 := by
  show StableHlo.after hostOps0 (W0 m ρ c) (Proc.devRef .tc main_v0) = _
  after_results
  rfl

/-- Region 1's bias row. -/
theorem V3_bias (c : Dev nD) :
    (V3 m ρ c main_v2 : S1x128.Idx → EReal) = shapeCast S1x128 (m ((c : Thread nD τ).loc main_arg11)) shapeCasts_S128_S1x128 := by
  show StableHlo.after hostOps1 (W2 m ρ c) (Proc.devRef .tc main_v2) = _
  after_results
  rw [W2_kept m ρ c main_arg11 (by decide) (by decide)]
  rfl

/-- Region 0's result: the affine image of the node features. -/
theorem node_msgs (c : Dev nD) :
    W4 m ρ c (Proc.devRef .tc main_v1)
      = Term.nodeMsg (m ((c : Thread nD τ).loc main_arg0)) (m ((c : Thread nD τ).loc main_arg8)) (m ((c : Thread nD τ).loc main_arg9)) := by
  refine (W4_of_ne m ρ c main_v1 (by decide)).trans ((ops1_ne (W2 m ρ c) main_v1 (by decide)).trans ?_)
  refine (W2_arr m ρ c 3).trans ((Lin0.arr_eq (V1 m ρ) c).trans ?_)
  unfold Lin0.G Term.nodeMsg
  rw [V1_bias m ρ c]
  rw [show (V1 m ρ c main_arg0) = m ((c : Thread nD τ).loc main_arg0) from ops0_ne (W0 m ρ c) main_arg0 (by decide),
    show (V1 m ρ c main_arg8) = m ((c : Thread nD τ).loc main_arg8) from ops0_ne (W0 m ρ c) main_arg8 (by decide)]

/-- Region 1's result: the affine image of the hyperedge features. -/
theorem hedge_msgs (c : Dev nD) :
    W4 m ρ c (Proc.devRef .tc main_v3)
      = Term.hedgeMsg (m ((c : Thread nD τ).loc main_arg1)) (m ((c : Thread nD τ).loc main_arg10)) (m ((c : Thread nD τ).loc main_arg11)) := by
  refine (W4_arr m ρ c 3).trans ((Lin1.arr_eq (V3 m ρ) c).trans ?_)
  unfold Lin1.G Term.hedgeMsg
  rw [V3_bias m ρ c]
  rw [show (V3 m ρ c main_arg1) = m ((c : Thread nD τ).loc main_arg1) from
      (ops1_ne (W2 m ρ c) main_arg1 (by decide)).trans (W2_kept m ρ c main_arg1 (by decide) (by decide)),
    show (V3 m ρ c main_arg10) = m ((c : Thread nD τ).loc main_arg10) from
      (ops1_ne (W2 m ρ c) main_arg10 (by decide)).trans (W2_kept m ρ c main_arg10 (by decide) (by decide))]

/-! ## The long stretch, and the last region -/

/-- The aggregated node messages, as the long stretch leaves them. -/
theorem node_agg (c : Dev nD) :
    W5 m ρ c (Proc.devRef .tc main_v15)
      = Term.nodeAgg (m ((c : Thread nD τ).loc main_arg0)) (m ((c : Thread nD τ).loc main_arg2)) (m ((c : Thread nD τ).loc main_arg3))
          (m ((c : Thread nD τ).loc main_arg4)) (m ((c : Thread nD τ).loc main_arg8)) (m ((c : Thread nD τ).loc main_arg9)) := by
  show StableHlo.after hostOps2 (W4 m ρ c) (Proc.devRef .tc main_v15) = _
  after_results_simp
  rw [node_msgs m ρ c, W4_kept m ρ c main_arg2 (by decide) (by decide) (by decide) (by decide),
    W4_kept m ρ c main_arg3 (by decide) (by decide) (by decide) (by decide),
    W4_kept m ρ c main_arg4 (by decide) (by decide) (by decide) (by decide)]
  rfl

/-- The aggregated hyperedge messages. -/
theorem hedge_agg (c : Dev nD) :
    W5 m ρ c (Proc.devRef .tc main_v27)
      = Term.hedgeAgg (m ((c : Thread nD τ).loc main_arg1)) (m ((c : Thread nD τ).loc main_arg5)) (m ((c : Thread nD τ).loc main_arg6))
          (m ((c : Thread nD τ).loc main_arg7)) (m ((c : Thread nD τ).loc main_arg10)) (m ((c : Thread nD τ).loc main_arg11)) := by
  show StableHlo.after hostOps2 (W4 m ρ c) (Proc.devRef .tc main_v27) = _
  after_results_simp
  rw [hedge_msgs m ρ c, W4_kept m ρ c main_arg5 (by decide) (by decide) (by decide) (by decide),
    W4_kept m ρ c main_arg6 (by decide) (by decide) (by decide) (by decide),
    W4_kept m ρ c main_arg7 (by decide) (by decide) (by decide) (by decide)]
  rfl

/-- THE RESULT BUFFER at the last boundary is `Term.result` of the arguments' launch contents. -/
theorem result_eq (c : Dev nD) :
    W6 m ρ c (Proc.devRef .tc main_v28)
      = Term.result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11)) := by
  refine (W6_arr m ρ c 2).trans ((Comb.arr_eq (V5 m ρ) c).trans ?_)
  unfold Comb.G Term.result
  rw [show (V5 m ρ c main_v27) = _ from hedge_agg m ρ c, show (V5 m ρ c main_v15) = _ from node_agg m ρ c]

end Cert.KernelIdeal.Chain

end
-- ==== Proof.RefVal.lean ====
/-
  The reference's value is the kernel's function of the arguments (`Cert.KernelIdeal.Term.result`), over the extended reals.

  The reference gathers the sender rows of the features first and applies the affine map to the gathered rows; the kernel
  applies the affine map to every row first and gathers rows of the image. Entry `(e, f)` of either is
  `∑ₖ X[r, k] · W[f, k] + b[f]` with `r` the clamped start index of edge `e`: a row gather reads row `r` of whatever array
  it is given, the column unchanged, and `r` depends on the number of rows only (`Cert.Spec.gather_rows_apply`). No law of
  arithmetic is used, only that the two sums have the same terms in the same order. Everything after the messages — the
  scaling, the scatter-add, the product and the hyperbolic tangent — is the same chain of operations on both sides.
-/
import proofs.«145003_j30657476559413_1_alg».proof.Proof.Gen.ReferenceIdeal.Read
import proofs.«145003_j30657476559413_1_alg».proof.Proof.KTerm
import Idealize.ShloMosaic.Lib.Pipeline.Value
import Idealize.ShloMosaic.Lib.ValueIdx

noncomputable section

open scoped BigOperators

namespace Cert.ReferenceIdeal.RefValue

open Cert.ReferenceIdeal Cert.ReferenceIdeal.Gen Cert.ReferenceIdeal.Read Idealize.ShloMosaic
open Idealize.ShloMosaic.ValueIdx Cert.Spec

/-- The bias as one row, read at column `f`, is entry `f` of the bias vector. -/
theorem bias_row (x : FVec Ideal S128 .f32) (h : S128.ShapeCasts S1x128) (f : Fin 128) :
    shapeCast S1x128 x h (ix2 (0 : Fin 1) f) = x (ix1 f) :=
  shapeCast_apply x h (ix2 (0 : Fin 1) f) (ix1 f) (by
    rw [Shape.rowMajor_val_one, Shape.rowMajor_val_two]
    show f.val = 0 * 128 + f.val
    omega)

/-- The reference normalises the node sender indices as the kernel's program does. -/
theorem startIdx_node (x2 : IVec S800000 32) : val_main_v5 (F := Ideal) x2 = Cert.KernelIdeal.Term.startIdx 50000#32 x2 := rfl
/-- And the hyperedge sender indices. -/
theorem startIdx_hedge (x5 : IVec S800000 32) : val_main_v22 (F := Ideal) x5 = Cert.KernelIdeal.Term.startIdx 100000#32 x5 := rfl

/-- THE NODE MESSAGES: the affine map of the gathered feature rows is the gathered rows of the affine image. -/
theorem node_msgs (x0 : FVec Ideal S50000x128 .f32) (x2 : IVec S800000 32) (x8 : FVec Ideal S128x128 .f32) (x9 : FVec Ideal S128 .f32) :
    val_main_v11 (F := Ideal) x0 x2 x8 x9
      = Host.gather Cert.KernelIdeal.gather_S50000x128_S800000x1_S800000x128_1_0_n_n_0_1_1128 (Cert.KernelIdeal.Term.nodeMsg x0 x8 x9) (Cert.KernelIdeal.Term.startIdx 50000#32 x2) := by
  funext i
  obtain ⟨e, f, rfl⟩ : ∃ (e : Fin 800000) (f : Fin 128), i = ix2 e f := ⟨i 0, i 1, eq_ix2 i⟩
  refine Eq.trans ?_ (gather_rows_apply (M := 50000) (C := 128) (E := 800000) (by decide) (Cert.KernelIdeal.gather_S50000x128_S800000x1_S800000x128_1_0_n_n_0_1_1128).wf
    (Cert.KernelIdeal.Term.nodeMsg x0 x8 x9) (Cert.KernelIdeal.Term.startIdx 50000#32 x2) e f).symm
  unfold Cert.KernelIdeal.Term.nodeMsg
  rw [lin_apply, val_main_v11_apply, val_main_v8_apply, val_main_v10_apply, val_main_v9_apply]
  show _ + _ = _ + _
  refine congrArg₂ (· + ·) (Finset.sum_congr rfl fun k _ => congrArg₂ (· * ·) ?_ ?_) ?_
  · have hl : lidx_main_v8 (ix2 e f) k = ix2 e k := funext fun a => Fin.ext (by
      match a with
      | ⟨0, _⟩ => rfl
      | ⟨1, _⟩ => rfl)
    rw [hl]
    unfold val_main_v6
    rw [startIdx_node]
    exact gather_rows_apply (M := 50000) (C := 128) (E := 800000) (by decide) (gather_S50000x128_S800000x1_S800000x128_1_0_n_n_0_1_1128).wf x0
      (Cert.KernelIdeal.Term.startIdx 50000#32 x2) e k
  · rw [val_main_v7_apply]
    exact congrArg x8 (funext fun a => Fin.ext (by
      match a with
      | ⟨0, _⟩ => rfl
      | ⟨1, _⟩ => rfl))
  · rw [bias_row]
    exact congrArg x9 (funext fun a => Fin.ext (by
      match a with
      | ⟨0, _⟩ => rfl))

/-- THE HYPEREDGE MESSAGES, the same. -/
theorem hedge_msgs (x1 : FVec Ideal S100000x64 .f32) (x5 : IVec S800000 32) (x10 : FVec Ideal S128x64 .f32) (x11 : FVec Ideal S128 .f32) :
    val_main_v28 (F := Ideal) x1 x5 x10 x11
      = Host.gather Cert.KernelIdeal.gather_S100000x128_S800000x1_S800000x128_1_0_n_n_0_1_1128 (Cert.KernelIdeal.Term.hedgeMsg x1 x10 x11) (Cert.KernelIdeal.Term.startIdx 100000#32 x5) := by
  funext i
  obtain ⟨e, f, rfl⟩ : ∃ (e : Fin 800000) (f : Fin 128), i = ix2 e f := ⟨i 0, i 1, eq_ix2 i⟩
  refine Eq.trans ?_ (gather_rows_apply (M := 100000) (C := 128) (E := 800000) (by decide) (Cert.KernelIdeal.gather_S100000x128_S800000x1_S800000x128_1_0_n_n_0_1_1128).wf
    (Cert.KernelIdeal.Term.hedgeMsg x1 x10 x11) (Cert.KernelIdeal.Term.startIdx 100000#32 x5) e f).symm
  unfold Cert.KernelIdeal.Term.hedgeMsg
  rw [lin_apply, val_main_v28_apply, val_main_v25_apply, val_main_v27_apply, val_main_v26_apply]
  show _ + _ = _ + _
  refine congrArg₂ (· + ·) (Finset.sum_congr rfl fun k _ => congrArg₂ (· * ·) ?_ ?_) ?_
  · have hl : lidx_main_v25 (ix2 e f) k = ix2 e k := funext fun a => Fin.ext (by
      match a with
      | ⟨0, _⟩ => rfl
      | ⟨1, _⟩ => rfl)
    rw [hl]
    unfold val_main_v23
    rw [startIdx_hedge]
    exact gather_rows_apply (M := 100000) (C := 64) (E := 800000) (by decide) (gather_S100000x64_S800000x1_S800000x64_1_0_n_n_0_1_164).wf x1
      (Cert.KernelIdeal.Term.startIdx 100000#32 x5) e k
  · rw [val_main_v24_apply]
    exact congrArg x10 (funext fun a => Fin.ext (by
      match a with
      | ⟨0, _⟩ => rfl
      | ⟨1, _⟩ => rfl))
  · rw [bias_row]
    exact congrArg x11 (funext fun a => Fin.ext (by
      match a with
      | ⟨0, _⟩ => rfl))

/-- The aggregated node messages: the same scaling and scatter-add of equal messages. -/
theorem node_agg (x0 : FVec Ideal S50000x128 .f32) (x2 x3 : IVec S800000 32) (x4 : FVec Ideal S800000x1 .f32)
    (x8 : FVec Ideal S128x128 .f32) (x9 : FVec Ideal S128 .f32) :
    val_main_v16 (F := Ideal) x0 x2 x3 x4 x8 x9 = Cert.KernelIdeal.Term.nodeAgg x0 x2 x3 x4 x8 x9 := by
  unfold val_main_v16 val_main_v13
  rw [node_msgs]
  rfl

/-- The aggregated hyperedge messages. -/
theorem hedge_agg (x1 : FVec Ideal S100000x64 .f32) (x5 x6 : IVec S800000 32) (x7 : FVec Ideal S800000x1 .f32)
    (x10 : FVec Ideal S128x64 .f32) (x11 : FVec Ideal S128 .f32) :
    val_main_v33 (F := Ideal) x1 x5 x6 x7 x10 x11 = Cert.KernelIdeal.Term.hedgeAgg x1 x5 x6 x7 x10 x11 := by
  unfold val_main_v33 val_main_v30
  rw [hedge_msgs]
  rfl

/-- The host's hyperbolic tangent of a product of arrays is `comb` of them: both are `Ideal.tanh` of the entries' product. -/
theorem tanh_mul (a b : FVec Ideal S50000x128 .f32) : Host.tanh (mulf a b) = comb (S := S50000x128) a b := rfl

/-- THE REFERENCE'S RESULT is the kernel's function of the arguments. -/
theorem result_eq (x0 : FVec Ideal S50000x128 .f32) (x1 : FVec Ideal S100000x64 .f32) (x2 x3 : IVec S800000 32)
    (x4 : FVec Ideal S800000x1 .f32) (x5 x6 : IVec S800000 32) (x7 : FVec Ideal S800000x1 .f32)
    (x8 : FVec Ideal S128x128 .f32) (x9 : FVec Ideal S128 .f32) (x10 : FVec Ideal S128x64 .f32) (x11 : FVec Ideal S128 .f32) :
    val_main_v35 (F := Ideal) x0 x1 x2 x3 x4 x5 x6 x7 x8 x9 x10 x11
      = Cert.KernelIdeal.Term.result x0 x1 x2 x3 x4 x5 x6 x7 x8 x9 x10 x11 := by
  unfold val_main_v35 val_main_v34 Cert.KernelIdeal.Term.result
  refine (tanh_mul (val_main_v33 (F := Ideal) x1 x5 x6 x7 x10 x11) (val_main_v16 (F := Ideal) x0 x2 x3 x4 x8 x9)).trans ?_
  exact congrArg₂ (comb (S := S50000x128)) (hedge_agg x1 x5 x6 x7 x10 x11) (node_agg x0 x2 x3 x4 x8 x9)

end Cert.ReferenceIdeal.RefValue

end
-- ==== Proof.lean ====
/-
  A hypergraph message-passing layer: `tanh (S · M)` where `M` adds, into each receiver node's row, the coefficient-scaled
  images `W_msg x + b_msg` of its node senders' feature rows, and `S` does the same with the hyperedge senders' rows under
  `W_scale, b_scale`. The reference gathers the senders' feature rows and maps them; the kernel maps every feature row once
  (two blocked matrix products, in three pipelined regions with the elementwise `tanh` of the product) and gathers rows of the
  images. Over the extended reals the two are one function of the arguments (`Cert.KernelIdeal.Term.result`):

  * each region's result array is a whole-array function of its operand arrays — the blocks a point reads are blocks of
    the arrays, the body's value at an entry is the affine map's (or `tanh` of the product), and the row blocks cover the
    result (KLin0, KLin1, KComb);
  * the host operations between the regions and the regions' results compose to `Term.result` of the launch contents
    (KChain, over the run of @main with the result buffer read, KRun);
  * a row gather commutes with a map applied row by row: entry `(e, f)` of either side is
    `∑ₖ X[r, k] · W[f, k] + b[f]` at the same clamped row `r` (RefVal, over the reference's stages read at an index).

  No law of arithmetic beyond reading both sums term by term is used, so the precondition is never opened. The ideal pass
  rewrote nothing in the kernel, so `preserves` is `True`; the three frames are the generated ones (the reference's from
  its generated run).
-/
import proofs.«145003_j30657476559413_1_alg».proof.Defs
import proofs.«145003_j30657476559413_1_alg».proof.Proof.Gen.Kernel
import proofs.«145003_j30657476559413_1_alg».proof.Proof.Gen.Kernel.Skeleton
import proofs.«145003_j30657476559413_1_alg».proof.Proof.Gen.Kernel.Launch
import proofs.«145003_j30657476559413_1_alg».proof.Proof.Gen.Kernel.Points
import proofs.«145003_j30657476559413_1_alg».proof.Proof.Gen.Kernel.Frame
import proofs.«145003_j30657476559413_1_alg».proof.Proof.Gen.KernelIdeal
import proofs.«145003_j30657476559413_1_alg».proof.Proof.Gen.KernelIdeal.Skeleton
import proofs.«145003_j30657476559413_1_alg».proof.Proof.Gen.KernelIdeal.Launch
import proofs.«145003_j30657476559413_1_alg».proof.Proof.Gen.KernelIdeal.Points
import proofs.«145003_j30657476559413_1_alg».proof.Proof.Gen.KernelIdeal.Frame
import proofs.«145003_j30657476559413_1_alg».proof.Proof.Gen.ReferenceIdeal
import proofs.«145003_j30657476559413_1_alg».proof.Proof.Gen.ReferenceIdeal.Run
import proofs.«145003_j30657476559413_1_alg».proof.Proof.Gen.ReferenceIdeal.Read
import proofs.«145003_j30657476559413_1_alg».proof.Proof.Gen.Pre_finite_inputs
import proofs.«145003_j30657476559413_1_alg».proof.Proof.KRun
import proofs.«145003_j30657476559413_1_alg».proof.Proof.KChain
import proofs.«145003_j30657476559413_1_alg».proof.Proof.RefVal
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Run from memories that agree on the arguments, both programs end with the result buffer at
    `Cert.KernelIdeal.Term.result` of the arguments: the kernel's by the regions and host stretches read end to end, the
    reference's because gathering rows and mapping them is mapping every row and gathering. -/
theorem algebraic : Cert.algebraic_KernelIdeal_ReferenceIdeal := by
  intro m ρ m' ρ' _ hagree
  refine ⟨fun c => Cert.KernelIdeal.Term.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Chain.result_eq m ρ c), (h c).2⟩)
      (Cert.KernelIdeal.GenP.run_main (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10, a11⟩ := hagree c
    rw [Cert.ReferenceIdeal.Read.val_main_v35_eq, Cert.ReferenceIdeal.RefValue.result_eq,
      a0, a1, a2, a3, a4, a5, a6, a7, a8, a9, a10, a11]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
